-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 72
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S5000x1, .f32⟩
  | .local _ .vmem, ⟨23, _⟩ => ⟨S5000x1, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result named.  The program is four pallas_call regions among stretches of host
  operations; the memory at each boundary is a fold from the launch memory (host stretches applied, each region's
  output array replaced by what its write-backs leave).  Every weakly fair execution terminates, and in the final
  state the result array is the last fold `W8` at the result's buffer, the arguments as launched.
-/
import proofs.«156591_j23038204575791_1_alg».proof.Proof.KernelIdealFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents: the final state holds every unscoped buffer
    at `W8`, the result's among them. -/
theorem run_named : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Gen

end
-- ==== Proof.Spec.lean ====
/-
  The three-layer graph convolution as pure functions on the extended reals.

  A node array has 100000 rows.  One layer scales each row by the source norm of its node, multiplies by the layer's
  weight matrix, sums the rows of the edges' sources into the edges' destinations (the aggregation, kept abstract
  here: any function of a node array), scales by the destination norm and adds the bias; the first two layers clamp
  at zero.  The clamp, the source scaling and the product by the next layer's weights are grouped into one step,
  so the whole network is: `scaleMul`, aggregate, `clampScaleMul`, aggregate, `clampScaleMul`, aggregate,
  `scaleBias`.
-/
import Idealize.ShloMosaic.PureOps.Ideal
import Idealize.ShloMosaic.Lib.ValueIdx

noncomputable section
open scoped BigOperators
open Idealize.ShloMosaic Idealize.ShloMosaic.ValueIdx

namespace Cert.Gnn

/-- Row `r` of `x` scaled by `n r`, times the matrix `W`: entry `(r, j)` is `∑ k, (x r k · n r) · W k j`. -/
def scaleMul (e : Nat) (x : FVec Ideal ⟨2, ![100000, 128]⟩ .f32) (n : FVec Ideal ⟨1, ![100000]⟩ .f32)
    (W : FVec Ideal ⟨2, ![128, e]⟩ .f32) : FVec Ideal ⟨2, ![100000, e]⟩ .f32 :=
  fun i => ∑ k : Fin 128, (x (ix2 (i 0) k) * n (ix1 (i 0))) * W (ix2 k (i 1))

/-- The aggregated row `r` of `a` scaled by the destination norm `d r` plus the bias, clamped at zero, scaled by the
    source norm `n r`, times the matrix `W`:
    entry `(r, j)` is `∑ k, (max (a r k · d r + b k) 0 · n r) · W k j`. -/
def clampScaleMul (e : Nat) (a : FVec Ideal ⟨2, ![100000, 128]⟩ .f32) (d : FVec Ideal ⟨1, ![100000]⟩ .f32)
    (b : FVec Ideal ⟨1, ![128]⟩ .f32) (n : FVec Ideal ⟨1, ![100000]⟩ .f32)
    (W : FVec Ideal ⟨2, ![128, e]⟩ .f32) : FVec Ideal ⟨2, ![100000, e]⟩ .f32 :=
  fun i => ∑ k : Fin 128,
    (max (a (ix2 (i 0) k) * d (ix1 (i 0)) + b (ix1 k)) (Ideal.ofBits .f32 0x00000000#32) * n (ix1 (i 0))) * W (ix2 k (i 1))

/-- The aggregated array scaled by the destination norm plus the bias: entry `(r, j)` is `a r j · d r + b j`. -/
def scaleBias (e : Nat) (a : FVec Ideal ⟨2, ![100000, e]⟩ .f32) (d : FVec Ideal ⟨1, ![100000]⟩ .f32)
    (b : FVec Ideal ⟨1, ![e]⟩ .f32) : FVec Ideal ⟨2, ![100000, e]⟩ .f32 :=
  fun i => a (ix2 (i 0) (i 1)) * d (ix1 (i 0)) + b (ix1 (i 1))

/-- The network: three layers over the aggregations `agg` (on 128 columns) and `agg'` (on 64 columns), the source
    norms `n` and the destination norms `d`. -/
def layers (agg : FVec Ideal ⟨2, ![100000, 128]⟩ .f32 → FVec Ideal ⟨2, ![100000, 128]⟩ .f32)
    (agg' : FVec Ideal ⟨2, ![100000, 64]⟩ .f32 → FVec Ideal ⟨2, ![100000, 64]⟩ .f32)
    (n d : FVec Ideal ⟨1, ![100000]⟩ .f32)
    (x : FVec Ideal ⟨2, ![100000, 128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 64]⟩ .f32) (b3 : FVec Ideal ⟨1, ![64]⟩ .f32) : FVec Ideal ⟨2, ![100000, 64]⟩ .f32 :=
  scaleBias 64 (agg' (clampScaleMul 64 (agg (clampScaleMul 128 (agg (scaleMul 128 x n W1)) d b1 n W2)) d b2 n W3)) d b3

end Cert.Gnn
-- ==== Proof.ColSpec.lean ====
/-
  The layer steps of `Cert.Gnn` with the two norms given as one-column arrays (a node's norm at `(r, 0)`), the form in
  which the kernels' blocks read them; a norm vector laid out as a column gives back the steps over vectors.
-/
import proofs.«156591_j23038204575791_1_alg».proof.Proof.Spec

noncomputable section
open scoped BigOperators
open Idealize.ShloMosaic Idealize.ShloMosaic.ValueIdx

namespace Cert.Gnn

/-- A vector over the nodes laid out as one column. -/
def col (n : FVec Ideal ⟨1, ![100000]⟩ .f32) : FVec Ideal ⟨2, ![100000, 1]⟩ .f32 := fun i => n (ix1 (i 0))

/-- `scaleMul` with the norm a column: entry `(r, j)` is `∑ k, (x r k · n r 0) · W k j`. -/
def scaleMulC (e : Nat) (x : FVec Ideal ⟨2, ![100000, 128]⟩ .f32) (n : FVec Ideal ⟨2, ![100000, 1]⟩ .f32)
    (W : FVec Ideal ⟨2, ![128, e]⟩ .f32) : FVec Ideal ⟨2, ![100000, e]⟩ .f32 :=
  fun i => ∑ k : Fin 128, (x (ix2 (i 0) k) * n (ix2 (i 0) (0 : Fin 1))) * W (ix2 k (i 1))

/-- `clampScaleMul` with both norms columns: entry `(r, j)` is `∑ k, (max (a r k · d r 0 + b k) 0 · n r 0) · W k j`. -/
def clampScaleMulC (e : Nat) (a : FVec Ideal ⟨2, ![100000, 128]⟩ .f32) (d : FVec Ideal ⟨2, ![100000, 1]⟩ .f32)
    (b : FVec Ideal ⟨1, ![128]⟩ .f32) (n : FVec Ideal ⟨2, ![100000, 1]⟩ .f32)
    (W : FVec Ideal ⟨2, ![128, e]⟩ .f32) : FVec Ideal ⟨2, ![100000, e]⟩ .f32 :=
  fun i => ∑ k : Fin 128,
    (max (a (ix2 (i 0) k) * d (ix2 (i 0) (0 : Fin 1)) + b (ix1 k)) (Ideal.ofBits .f32 0x00000000#32)
      * n (ix2 (i 0) (0 : Fin 1))) * W (ix2 k (i 1))

/-- `scaleBias` with the norm a column: entry `(r, j)` is `a r j · d r 0 + b j`. -/
def scaleBiasC (e : Nat) (a : FVec Ideal ⟨2, ![100000, e]⟩ .f32) (d : FVec Ideal ⟨2, ![100000, 1]⟩ .f32)
    (b : FVec Ideal ⟨1, ![e]⟩ .f32) : FVec Ideal ⟨2, ![100000, e]⟩ .f32 :=
  fun i => a (ix2 (i 0) (i 1)) * d (ix2 (i 0) (0 : Fin 1)) + b (ix1 (i 1))

theorem scaleMulC_col (e : Nat) (x : FVec Ideal ⟨2, ![100000, 128]⟩ .f32) (n : FVec Ideal ⟨1, ![100000]⟩ .f32)
    (W : FVec Ideal ⟨2, ![128, e]⟩ .f32) : scaleMulC e x (col n) W = scaleMul e x n W := rfl

theorem clampScaleMulC_col (e : Nat) (a : FVec Ideal ⟨2, ![100000, 128]⟩ .f32) (d : FVec Ideal ⟨1, ![100000]⟩ .f32)
    (b : FVec Ideal ⟨1, ![128]⟩ .f32) (n : FVec Ideal ⟨1, ![100000]⟩ .f32) (W : FVec Ideal ⟨2, ![128, e]⟩ .f32) :
    clampScaleMulC e a (col d) b (col n) W = clampScaleMul e a d b n W := rfl

theorem scaleBiasC_col (e : Nat) (a : FVec Ideal ⟨2, ![100000, e]⟩ .f32) (d : FVec Ideal ⟨1, ![100000]⟩ .f32)
    (b : FVec Ideal ⟨1, ![e]⟩ .f32) : scaleBiasC e a (col d) b = scaleBias e a d b := rfl

end Cert.Gnn
-- ==== Proof.Carry.lean ====
/-
  What each region of the idealized kernel program finds in the arrays it reads.  The program's memory at each boundary
  is a fold from the launch memory: a stretch of host operations rewrites the buffers it writes, a region replaces its
  output array.  An argument array is written by nothing, so every region reads it as launched; the two norm columns are
  written once, before the first region, as the reciprocal square root of the clamped degree counts, reshaped to one
  column; the array a later region reads was aggregated, by the host stretch before it, from the previous region's
  output: the rows at the edges' (wrapped) sources gathered and added into zeros at the edges' destinations.
-/
import proofs.«156591_j23038204575791_1_alg».proof.Proof.KernelIdealFrame
import proofs.«156591_j23038204575791_1_alg».proof.Proof.ColSpec
import Idealize.ShloMosaic.Lib.StableHlo.Run
import Idealize.ShloMosaic.Lib.Pipeline.Value

set_option maxRecDepth 16384

noncomputable section

namespace Cert.Gnn.Kernel

open Cert.KernelIdeal Cert.KernelIdeal.Gen Idealize.ShloMosaic Idealize.ShloMosaic.TcCoe Idealize.ShloMosaic.ValueIdx
open Idealize.SL.Sem Idealize.ShloMosaic.StableHlo

/-- A node's norm: the reciprocal square root of its degree (the count of the edges whose index column `ix` names the
    node: ones added at the indices into zeros), clamped below at one. -/
def norm (ix : (⟨S1600000, .i32⟩ : BufTy).Contents (Elt Ideal)) : (⟨S100000, .f32⟩ : BufTy).Contents (Elt Ideal) :=
  Host.rsqrt (F := Ideal) (maximumf
    (Host.scatterAdd (F := Ideal) (φ := .f32) scatter_S100000_S1600000x1_S1600000_n_0_0_1
      (broadcastInDim S100000 ![] bcast_S_S100000 (constant S_ .f32 0x00000000#32))
      (broadcastInDim S1600000x1 ![0] bcast_S1600000_S1600000x1_0 ix)
      (broadcastInDim S1600000 ![] bcast_S_S1600000 (constant S_ .f32 0x3F800000#32)))
    (broadcastInDim S100000 ![] bcast_S_S100000 (constant S_ .f32 0x3F800000#32)))

/-- The aggregation on 128 columns: the rows of `h` at the edges' sources `x1` (a negative index wrapped once) gathered,
    and added into zeros at the edges' destinations `x2`. -/
def agg (x1 x2 : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant S_ .f32 0x00000000#32))
    (broadcastInDim S1600000x1 ![0] bcast_S1600000_S1600000x1_0 x2)
    (Host.gather gather_S100000x128_S1600000x1_S1600000x128_1_0_n_n_0_1_1128 h
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The aggregation on 64 columns. -/
def agg' (x1 x2 : (⟨S1600000, .i32⟩ : BufTy).Contents (Elt Ideal))
    (h : (⟨S100000x64, .f32⟩ : BufTy).Contents (Elt Ideal)) : (⟨S100000x64, .f32⟩ : BufTy).Contents (Elt Ideal) :=
  Host.scatterAdd (F := Ideal) (φ := .f32) scatter_S100000x64_S1600000x1_S1600000x64_1_0_0_1
    (broadcastInDim S100000x64 ![] bcast_S_S100000x64 (constant S_ .f32 0x00000000#32))
    (broadcastInDim S1600000x1 ![0] bcast_S1600000_S1600000x1_0 x2)
    (Host.gather gather_S100000x64_S1600000x1_S1600000x64_1_0_n_n_0_1_164 h
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

variable (m : (ℓ : Loc nD τ sig) → Buf (Elt Ideal) ℓ) (ρ : Dev nD → PrngReg) (c : Dev nD)

/-- A vector cast to one column reads, at `(r, 0)`, the vector at `r`: the two positions agree in row-major order. -/
theorem reshape_col (n : (⟨S100000, .f32⟩ : BufTy).Contents (Elt Ideal)) :
    (fun i => shapeCast S100000x1 n shapeCasts_S100000_S100000x1 i) = Cert.Gnn.col n := by
  funext i
  obtain ⟨r, u, rfl⟩ : ∃ (r : Fin 100000) (u : Fin 1), i = ix2 r u := ⟨i 0, i 1, eq_ix2 i⟩
  show shapeCast S100000x1 n shapeCasts_S100000_S100000x1 (ix2 r u) = n (ix1 r)
  refine shapeCast_apply n _ _ _ ?_
  rw [Shape.rowMajor_val_one, Shape.rowMajor_val_two]
  show r.val = r.val * 1 + u.val
  omega

/-! ## The fold, one boundary at a time

  A host stretch leaves a buffer it does not write; a region leaves a buffer that is none of its arrays, and an input
  array as it entered. -/

/-! ### The input (`main_arg0`), boundary by boundary -/

private theorem host0_arg0 : W1 m ρ c (Proc.devRef .tc main_arg0) = W0 m ρ c (Proc.devRef .tc main_arg0) := by
  show StableHlo.after hostOps0 (W0 m ρ c) (Proc.devRef .tc main_arg0) = _
  after_results
private theorem at1_arg0 : W1 m ρ c (Proc.devRef .tc main_arg0) = m ((c : Thread nD τ).loc main_arg0) := host0_arg0 m ρ c

/-! ### The first weights (`main_arg3`), boundary by boundary -/

private theorem host0_arg3 : W1 m ρ c (Proc.devRef .tc main_arg3) = W0 m ρ c (Proc.devRef .tc main_arg3) := by
  show StableHlo.after hostOps0 (W0 m ρ c) (Proc.devRef .tc main_arg3) = _
  after_results
private theorem at1_arg3 : W1 m ρ c (Proc.devRef .tc main_arg3) = m ((c : Thread nD τ).loc main_arg3) := host0_arg3 m ρ c

/-! ### The edges' sources (`main_arg1`), boundary by boundary -/

private theorem host0_arg1 : W1 m ρ c (Proc.devRef .tc main_arg1) = W0 m ρ c (Proc.devRef .tc main_arg1) := by
  show StableHlo.after hostOps0 (W0 m ρ c) (Proc.devRef .tc main_arg1) = _
  after_results
private theorem at1_arg1 : W1 m ρ c (Proc.devRef .tc main_arg1) = m ((c : Thread nD τ).loc main_arg1) := host0_arg1 m ρ c
private theorem region0_arg1 : W2 m ρ c (Proc.devRef .tc main_arg1) = W1 m ρ c (Proc.devRef .tc main_arg1) :=
  W2_of_ne m ρ c main_arg1 (by decide)
private theorem at2_arg1 : W2 m ρ c (Proc.devRef .tc main_arg1) = m ((c : Thread nD τ).loc main_arg1) := (region0_arg1 m ρ c).trans (at1_arg1 m ρ c)
private theorem host1_arg1 : W3 m ρ c (Proc.devRef .tc main_arg1) = W2 m ρ c (Proc.devRef .tc main_arg1) := by
  show StableHlo.after hostOps1 (W2 m ρ c) (Proc.devRef .tc main_arg1) = _
  after_results
private theorem at3_arg1 : W3 m ρ c (Proc.devRef .tc main_arg1) = m ((c : Thread nD τ).loc main_arg1) := (host1_arg1 m ρ c).trans (at2_arg1 m ρ c)
private theorem region1_arg1 : W4 m ρ c (Proc.devRef .tc main_arg1) = W3 m ρ c (Proc.devRef .tc main_arg1) :=
  W4_of_ne m ρ c main_arg1 (by decide)
private theorem at4_arg1 : W4 m ρ c (Proc.devRef .tc main_arg1) = m ((c : Thread nD τ).loc main_arg1) := (region1_arg1 m ρ c).trans (at3_arg1 m ρ c)
private theorem host2_arg1 : W5 m ρ c (Proc.devRef .tc main_arg1) = W4 m ρ c (Proc.devRef .tc main_arg1) := by
  show StableHlo.after hostOps2 (W4 m ρ c) (Proc.devRef .tc main_arg1) = _
  after_results
private theorem at5_arg1 : W5 m ρ c (Proc.devRef .tc main_arg1) = m ((c : Thread nD τ).loc main_arg1) := (host2_arg1 m ρ c).trans (at4_arg1 m ρ c)
private theorem region2_arg1 : W6 m ρ c (Proc.devRef .tc main_arg1) = W5 m ρ c (Proc.devRef .tc main_arg1) :=
  W6_of_ne m ρ c main_arg1 (by decide)
private theorem at6_arg1 : W6 m ρ c (Proc.devRef .tc main_arg1) = m ((c : Thread nD τ).loc main_arg1) := (region2_arg1 m ρ c).trans (at5_arg1 m ρ c)

/-! ### The edges' destinations (`main_arg2`), boundary by boundary -/

private theorem host0_arg2 : W1 m ρ c (Proc.devRef .tc main_arg2) = W0 m ρ c (Proc.devRef .tc main_arg2) := by
  show StableHlo.after hostOps0 (W0 m ρ c) (Proc.devRef .tc main_arg2) = _
  after_results
private theorem at1_arg2 : W1 m ρ c (Proc.devRef .tc main_arg2) = m ((c : Thread nD τ).loc main_arg2) := host0_arg2 m ρ c
private theorem region0_arg2 : W2 m ρ c (Proc.devRef .tc main_arg2) = W1 m ρ c (Proc.devRef .tc main_arg2) :=
  W2_of_ne m ρ c main_arg2 (by decide)
private theorem at2_arg2 : W2 m ρ c (Proc.devRef .tc main_arg2) = m ((c : Thread nD τ).loc main_arg2) := (region0_arg2 m ρ c).trans (at1_arg2 m ρ c)
private theorem host1_arg2 : W3 m ρ c (Proc.devRef .tc main_arg2) = W2 m ρ c (Proc.devRef .tc main_arg2) := by
  show StableHlo.after hostOps1 (W2 m ρ c) (Proc.devRef .tc main_arg2) = _
  after_results
private theorem at3_arg2 : W3 m ρ c (Proc.devRef .tc main_arg2) = m ((c : Thread nD τ).loc main_arg2) := (host1_arg2 m ρ c).trans (at2_arg2 m ρ c)
private theorem region1_arg2 : W4 m ρ c (Proc.devRef .tc main_arg2) = W3 m ρ c (Proc.devRef .tc main_arg2) :=
  W4_of_ne m ρ c main_arg2 (by decide)
private theorem at4_arg2 : W4 m ρ c (Proc.devRef .tc main_arg2) = m ((c : Thread nD τ).loc main_arg2) := (region1_arg2 m ρ c).trans (at3_arg2 m ρ c)
private theorem host2_arg2 : W5 m ρ c (Proc.devRef .tc main_arg2) = W4 m ρ c (Proc.devRef .tc main_arg2) := by
  show StableHlo.after hostOps2 (W4 m ρ c) (Proc.devRef .tc main_arg2) = _
  after_results
private theorem at5_arg2 : W5 m ρ c (Proc.devRef .tc main_arg2) = m ((c : Thread nD τ).loc main_arg2) := (host2_arg2 m ρ c).trans (at4_arg2 m ρ c)
private theorem region2_arg2 : W6 m ρ c (Proc.devRef .tc main_arg2) = W5 m ρ c (Proc.devRef .tc main_arg2) :=
  W6_of_ne m ρ c main_arg2 (by decide)
private theorem at6_arg2 : W6 m ρ c (Proc.devRef .tc main_arg2) = m ((c : Thread nD τ).loc main_arg2) := (region2_arg2 m ρ c).trans (at5_arg2 m ρ c)

/-! ### The first bias (`main_arg4`), boundary by boundary -/

private theorem host0_arg4 : W1 m ρ c (Proc.devRef .tc main_arg4) = W0 m ρ c (Proc.devRef .tc main_arg4) := by
  show StableHlo.after hostOps0 (W0 m ρ c) (Proc.devRef .tc main_arg4) = _
  after_results
private theorem at1_arg4 : W1 m ρ c (Proc.devRef .tc main_arg4) = m ((c : Thread nD τ).loc main_arg4) := host0_arg4 m ρ c
private theorem region0_arg4 : W2 m ρ c (Proc.devRef .tc main_arg4) = W1 m ρ c (Proc.devRef .tc main_arg4) :=
  W2_of_ne m ρ c main_arg4 (by decide)
private theorem at2_arg4 : W2 m ρ c (Proc.devRef .tc main_arg4) = m ((c : Thread nD τ).loc main_arg4) := (region0_arg4 m ρ c).trans (at1_arg4 m ρ c)
private theorem host1_arg4 : W3 m ρ c (Proc.devRef .tc main_arg4) = W2 m ρ c (Proc.devRef .tc main_arg4) := by
  show StableHlo.after hostOps1 (W2 m ρ c) (Proc.devRef .tc main_arg4) = _
  after_results
private theorem at3_arg4 : W3 m ρ c (Proc.devRef .tc main_arg4) = m ((c : Thread nD τ).loc main_arg4) := (host1_arg4 m ρ c).trans (at2_arg4 m ρ c)

/-! ### The second weights (`main_arg5`), boundary by boundary -/

private theorem host0_arg5 : W1 m ρ c (Proc.devRef .tc main_arg5) = W0 m ρ c (Proc.devRef .tc main_arg5) := by
  show StableHlo.after hostOps0 (W0 m ρ c) (Proc.devRef .tc main_arg5) = _
  after_results
private theorem at1_arg5 : W1 m ρ c (Proc.devRef .tc main_arg5) = m ((c : Thread nD τ).loc main_arg5) := host0_arg5 m ρ c
private theorem region0_arg5 : W2 m ρ c (Proc.devRef .tc main_arg5) = W1 m ρ c (Proc.devRef .tc main_arg5) :=
  W2_of_ne m ρ c main_arg5 (by decide)
private theorem at2_arg5 : W2 m ρ c (Proc.devRef .tc main_arg5) = m ((c : Thread nD τ).loc main_arg5) := (region0_arg5 m ρ c).trans (at1_arg5 m ρ c)
private theorem host1_arg5 : W3 m ρ c (Proc.devRef .tc main_arg5) = W2 m ρ c (Proc.devRef .tc main_arg5) := by
  show StableHlo.after hostOps1 (W2 m ρ c) (Proc.devRef .tc main_arg5) = _
  after_results
private theorem at3_arg5 : W3 m ρ c (Proc.devRef .tc main_arg5) = m ((c : Thread nD τ).loc main_arg5) := (host1_arg5 m ρ c).trans (at2_arg5 m ρ c)

/-! ### The second bias (`main_arg6`), boundary by boundary -/

private theorem host0_arg6 : W1 m ρ c (Proc.devRef .tc main_arg6) = W0 m ρ c (Proc.devRef .tc main_arg6) := by
  show StableHlo.after hostOps0 (W0 m ρ c) (Proc.devRef .tc main_arg6) = _
  after_results
private theorem at1_arg6 : W1 m ρ c (Proc.devRef .tc main_arg6) = m ((c : Thread nD τ).loc main_arg6) := host0_arg6 m ρ c
private theorem region0_arg6 : W2 m ρ c (Proc.devRef .tc main_arg6) = W1 m ρ c (Proc.devRef .tc main_arg6) :=
  W2_of_ne m ρ c main_arg6 (by decide)
private theorem at2_arg6 : W2 m ρ c (Proc.devRef .tc main_arg6) = m ((c : Thread nD τ).loc main_arg6) := (region0_arg6 m ρ c).trans (at1_arg6 m ρ c)
private theorem host1_arg6 : W3 m ρ c (Proc.devRef .tc main_arg6) = W2 m ρ c (Proc.devRef .tc main_arg6) := by
  show StableHlo.after hostOps1 (W2 m ρ c) (Proc.devRef .tc main_arg6) = _
  after_results
private theorem at3_arg6 : W3 m ρ c (Proc.devRef .tc main_arg6) = m ((c : Thread nD τ).loc main_arg6) := (host1_arg6 m ρ c).trans (at2_arg6 m ρ c)
private theorem region1_arg6 : W4 m ρ c (Proc.devRef .tc main_arg6) = W3 m ρ c (Proc.devRef .tc main_arg6) :=
  W4_of_ne m ρ c main_arg6 (by decide)
private theorem at4_arg6 : W4 m ρ c (Proc.devRef .tc main_arg6) = m ((c : Thread nD τ).loc main_arg6) := (region1_arg6 m ρ c).trans (at3_arg6 m ρ c)
private theorem host2_arg6 : W5 m ρ c (Proc.devRef .tc main_arg6) = W4 m ρ c (Proc.devRef .tc main_arg6) := by
  show StableHlo.after hostOps2 (W4 m ρ c) (Proc.devRef .tc main_arg6) = _
  after_results
private theorem at5_arg6 : W5 m ρ c (Proc.devRef .tc main_arg6) = m ((c : Thread nD τ).loc main_arg6) := (host2_arg6 m ρ c).trans (at4_arg6 m ρ c)

/-! ### The third weights (`main_arg7`), boundary by boundary -/

private theorem host0_arg7 : W1 m ρ c (Proc.devRef .tc main_arg7) = W0 m ρ c (Proc.devRef .tc main_arg7) := by
  show StableHlo.after hostOps0 (W0 m ρ c) (Proc.devRef .tc main_arg7) = _
  after_results
private theorem at1_arg7 : W1 m ρ c (Proc.devRef .tc main_arg7) = m ((c : Thread nD τ).loc main_arg7) := host0_arg7 m ρ c
private theorem region0_arg7 : W2 m ρ c (Proc.devRef .tc main_arg7) = W1 m ρ c (Proc.devRef .tc main_arg7) :=
  W2_of_ne m ρ c main_arg7 (by decide)
private theorem at2_arg7 : W2 m ρ c (Proc.devRef .tc main_arg7) = m ((c : Thread nD τ).loc main_arg7) := (region0_arg7 m ρ c).trans (at1_arg7 m ρ c)
private theorem host1_arg7 : W3 m ρ c (Proc.devRef .tc main_arg7) = W2 m ρ c (Proc.devRef .tc main_arg7) := by
  show StableHlo.after hostOps1 (W2 m ρ c) (Proc.devRef .tc main_arg7) = _
  after_results
private theorem at3_arg7 : W3 m ρ c (Proc.devRef .tc main_arg7) = m ((c : Thread nD τ).loc main_arg7) := (host1_arg7 m ρ c).trans (at2_arg7 m ρ c)
private theorem region1_arg7 : W4 m ρ c (Proc.devRef .tc main_arg7) = W3 m ρ c (Proc.devRef .tc main_arg7) :=
  W4_of_ne m ρ c main_arg7 (by decide)
private theorem at4_arg7 : W4 m ρ c (Proc.devRef .tc main_arg7) = m ((c : Thread nD τ).loc main_arg7) := (region1_arg7 m ρ c).trans (at3_arg7 m ρ c)
private theorem host2_arg7 : W5 m ρ c (Proc.devRef .tc main_arg7) = W4 m ρ c (Proc.devRef .tc main_arg7) := by
  show StableHlo.after hostOps2 (W4 m ρ c) (Proc.devRef .tc main_arg7) = _
  after_results
private theorem at5_arg7 : W5 m ρ c (Proc.devRef .tc main_arg7) = m ((c : Thread nD τ).loc main_arg7) := (host2_arg7 m ρ c).trans (at4_arg7 m ρ c)

/-! ### The third bias (`main_arg8`), boundary by boundary -/

private theorem host0_arg8 : W1 m ρ c (Proc.devRef .tc main_arg8) = W0 m ρ c (Proc.devRef .tc main_arg8) := by
  show StableHlo.after hostOps0 (W0 m ρ c) (Proc.devRef .tc main_arg8) = _
  after_results
private theorem at1_arg8 : W1 m ρ c (Proc.devRef .tc main_arg8) = m ((c : Thread nD τ).loc main_arg8) := host0_arg8 m ρ c
private theorem region0_arg8 : W2 m ρ c (Proc.devRef .tc main_arg8) = W1 m ρ c (Proc.devRef .tc main_arg8) :=
  W2_of_ne m ρ c main_arg8 (by decide)
private theorem at2_arg8 : W2 m ρ c (Proc.devRef .tc main_arg8) = m ((c : Thread nD τ).loc main_arg8) := (region0_arg8 m ρ c).trans (at1_arg8 m ρ c)
private theorem host1_arg8 : W3 m ρ c (Proc.devRef .tc main_arg8) = W2 m ρ c (Proc.devRef .tc main_arg8) := by
  show StableHlo.after hostOps1 (W2 m ρ c) (Proc.devRef .tc main_arg8) = _
  after_results
private theorem at3_arg8 : W3 m ρ c (Proc.devRef .tc main_arg8) = m ((c : Thread nD τ).loc main_arg8) := (host1_arg8 m ρ c).trans (at2_arg8 m ρ c)
private theorem region1_arg8 : W4 m ρ c (Proc.devRef .tc main_arg8) = W3 m ρ c (Proc.devRef .tc main_arg8) :=
  W4_of_ne m ρ c main_arg8 (by decide)
private theorem at4_arg8 : W4 m ρ c (Proc.devRef .tc main_arg8) = m ((c : Thread nD τ).loc main_arg8) := (region1_arg8 m ρ c).trans (at3_arg8 m ρ c)
private theorem host2_arg8 : W5 m ρ c (Proc.devRef .tc main_arg8) = W4 m ρ c (Proc.devRef .tc main_arg8) := by
  show StableHlo.after hostOps2 (W4 m ρ c) (Proc.devRef .tc main_arg8) = _
  after_results
private theorem at5_arg8 : W5 m ρ c (Proc.devRef .tc main_arg8) = m ((c : Thread nD τ).loc main_arg8) := (host2_arg8 m ρ c).trans (at4_arg8 m ρ c)
private theorem region2_arg8 : W6 m ρ c (Proc.devRef .tc main_arg8) = W5 m ρ c (Proc.devRef .tc main_arg8) :=
  W6_of_ne m ρ c main_arg8 (by decide)
private theorem at6_arg8 : W6 m ρ c (Proc.devRef .tc main_arg8) = m ((c : Thread nD τ).loc main_arg8) := (region2_arg8 m ρ c).trans (at5_arg8 m ρ c)
private theorem host3_arg8 : W7 m ρ c (Proc.devRef .tc main_arg8) = W6 m ρ c (Proc.devRef .tc main_arg8) := by
  show StableHlo.after hostOps3 (W6 m ρ c) (Proc.devRef .tc main_arg8) = _
  after_results
private theorem at7_arg8 : W7 m ρ c (Proc.devRef .tc main_arg8) = m ((c : Thread nD τ).loc main_arg8) := (host3_arg8 m ρ c).trans (at6_arg8 m ρ c)

/-! ### The source norms' column (`main_v10`), boundary by boundary -/

private theorem at1_v10 : W1 m ρ c (Proc.devRef .tc main_v10) = Cert.Gnn.col (norm (m ((c : Thread nD τ).loc main_arg1))) := by
  show StableHlo.after hostOps0 (W0 m ρ c) (Proc.devRef .tc main_v10) = _
  after_results
  exact reshape_col (norm (m ((c : Thread nD τ).loc main_arg1)))
private theorem region0_v10 : W2 m ρ c (Proc.devRef .tc main_v10) = W1 m ρ c (Proc.devRef .tc main_v10) :=
  (W2_arr m ρ c 1).trans (((dat0 (V1 m ρ) c).arrAt_in 1 rfl _).trans (A_eq0 (V1 m ρ) c 1))
private theorem at2_v10 : W2 m ρ c (Proc.devRef .tc main_v10) = Cert.Gnn.col (norm (m ((c : Thread nD τ).loc main_arg1))) := (region0_v10 m ρ c).trans (at1_v10 m ρ c)
private theorem host1_v10 : W3 m ρ c (Proc.devRef .tc main_v10) = W2 m ρ c (Proc.devRef .tc main_v10) := by
  show StableHlo.after hostOps1 (W2 m ρ c) (Proc.devRef .tc main_v10) = _
  after_results
private theorem at3_v10 : W3 m ρ c (Proc.devRef .tc main_v10) = Cert.Gnn.col (norm (m ((c : Thread nD τ).loc main_arg1))) := (host1_v10 m ρ c).trans (at2_v10 m ρ c)
private theorem region1_v10 : W4 m ρ c (Proc.devRef .tc main_v10) = W3 m ρ c (Proc.devRef .tc main_v10) :=
  (W4_arr m ρ c 3).trans (((dat1 (V3 m ρ) c).arrAt_in 3 rfl _).trans (A_eq1 (V3 m ρ) c 3))
private theorem at4_v10 : W4 m ρ c (Proc.devRef .tc main_v10) = Cert.Gnn.col (norm (m ((c : Thread nD τ).loc main_arg1))) := (region1_v10 m ρ c).trans (at3_v10 m ρ c)
private theorem host2_v10 : W5 m ρ c (Proc.devRef .tc main_v10) = W4 m ρ c (Proc.devRef .tc main_v10) := by
  show StableHlo.after hostOps2 (W4 m ρ c) (Proc.devRef .tc main_v10) = _
  after_results
private theorem at5_v10 : W5 m ρ c (Proc.devRef .tc main_v10) = Cert.Gnn.col (norm (m ((c : Thread nD τ).loc main_arg1))) := (host2_v10 m ρ c).trans (at4_v10 m ρ c)

/-! ### The destination norms' column (`main_v14`), boundary by boundary -/

private theorem at1_v14 : W1 m ρ c (Proc.devRef .tc main_v14) = Cert.Gnn.col (norm (m ((c : Thread nD τ).loc main_arg2))) := by
  show StableHlo.after hostOps0 (W0 m ρ c) (Proc.devRef .tc main_v14) = _
  after_results
  exact reshape_col (norm (m ((c : Thread nD τ).loc main_arg2)))
private theorem region0_v14 : W2 m ρ c (Proc.devRef .tc main_v14) = W1 m ρ c (Proc.devRef .tc main_v14) :=
  W2_of_ne m ρ c main_v14 (by decide)
private theorem at2_v14 : W2 m ρ c (Proc.devRef .tc main_v14) = Cert.Gnn.col (norm (m ((c : Thread nD τ).loc main_arg2))) := (region0_v14 m ρ c).trans (at1_v14 m ρ c)
private theorem host1_v14 : W3 m ρ c (Proc.devRef .tc main_v14) = W2 m ρ c (Proc.devRef .tc main_v14) := by
  show StableHlo.after hostOps1 (W2 m ρ c) (Proc.devRef .tc main_v14) = _
  after_results
private theorem at3_v14 : W3 m ρ c (Proc.devRef .tc main_v14) = Cert.Gnn.col (norm (m ((c : Thread nD τ).loc main_arg2))) := (host1_v14 m ρ c).trans (at2_v14 m ρ c)
private theorem region1_v14 : W4 m ρ c (Proc.devRef .tc main_v14) = W3 m ρ c (Proc.devRef .tc main_v14) :=
  (W4_arr m ρ c 1).trans (((dat1 (V3 m ρ) c).arrAt_in 1 rfl _).trans (A_eq1 (V3 m ρ) c 1))
private theorem at4_v14 : W4 m ρ c (Proc.devRef .tc main_v14) = Cert.Gnn.col (norm (m ((c : Thread nD τ).loc main_arg2))) := (region1_v14 m ρ c).trans (at3_v14 m ρ c)
private theorem host2_v14 : W5 m ρ c (Proc.devRef .tc main_v14) = W4 m ρ c (Proc.devRef .tc main_v14) := by
  show StableHlo.after hostOps2 (W4 m ρ c) (Proc.devRef .tc main_v14) = _
  after_results
private theorem at5_v14 : W5 m ρ c (Proc.devRef .tc main_v14) = Cert.Gnn.col (norm (m ((c : Thread nD τ).loc main_arg2))) := (host2_v14 m ρ c).trans (at4_v14 m ρ c)
private theorem region2_v14 : W6 m ρ c (Proc.devRef .tc main_v14) = W5 m ρ c (Proc.devRef .tc main_v14) :=
  (W6_arr m ρ c 1).trans (((dat2 (V5 m ρ) c).arrAt_in 1 rfl _).trans (A_eq2 (V5 m ρ) c 1))
private theorem at6_v14 : W6 m ρ c (Proc.devRef .tc main_v14) = Cert.Gnn.col (norm (m ((c : Thread nD τ).loc main_arg2))) := (region2_v14 m ρ c).trans (at5_v14 m ρ c)
private theorem host3_v14 : W7 m ρ c (Proc.devRef .tc main_v14) = W6 m ρ c (Proc.devRef .tc main_v14) := by
  show StableHlo.after hostOps3 (W6 m ρ c) (Proc.devRef .tc main_v14) = _
  after_results
private theorem at7_v14 : W7 m ρ c (Proc.devRef .tc main_v14) = Cert.Gnn.col (norm (m ((c : Thread nD τ).loc main_arg2))) := (host3_v14 m ρ c).trans (at6_v14 m ρ c)

/-! ### The aggregated arrays: each host stretch gathers and adds the previous region's output -/

private theorem host1_v25 : W3 m ρ c (Proc.devRef .tc main_v25)
    = agg (W2 m ρ c (Proc.devRef .tc main_arg1)) (W2 m ρ c (Proc.devRef .tc main_arg2)) (W2 m ρ c (Proc.devRef .tc main_v15)) := by
  show StableHlo.after hostOps1 (W2 m ρ c) (Proc.devRef .tc main_v25) = _
  after_results
  rfl
private theorem host2_v36 : W5 m ρ c (Proc.devRef .tc main_v36)
    = agg (W4 m ρ c (Proc.devRef .tc main_arg1)) (W4 m ρ c (Proc.devRef .tc main_arg2)) (W4 m ρ c (Proc.devRef .tc main_v26)) := by
  show StableHlo.after hostOps2 (W4 m ρ c) (Proc.devRef .tc main_v36) = _
  after_results
  rfl
private theorem host3_v47 : W7 m ρ c (Proc.devRef .tc main_v47)
    = agg' (W6 m ρ c (Proc.devRef .tc main_arg1)) (W6 m ρ c (Proc.devRef .tc main_arg2)) (W6 m ρ c (Proc.devRef .tc main_v37)) := by
  show StableHlo.after hostOps3 (W6 m ρ c) (Proc.devRef .tc main_v47) = _
  after_results
  rfl

/-! ## Region 0 reads the input, the source norms, the first weights -/
theorem in0_arg0 : V1 m ρ c main_arg0 = m ((c : Thread nD τ).loc main_arg0) :=
  at1_arg0 m ρ c
theorem in0_v10 : V1 m ρ c main_v10 = Cert.Gnn.col (norm (m ((c : Thread nD τ).loc main_arg1))) :=
  at1_v10 m ρ c
theorem in0_arg3 : V1 m ρ c main_arg3 = m ((c : Thread nD τ).loc main_arg3) :=
  at1_arg3 m ρ c

/-! ## Region 1 reads the first aggregation, both norms, the first bias, the second weights -/
theorem in1_v25 : V3 m ρ c main_v25 = agg (m ((c : Thread nD τ).loc main_arg1)) (m ((c : Thread nD τ).loc main_arg2)) (W2 m ρ c (Proc.devRef .tc main_v15)) :=
  (host1_v25 m ρ c).trans (by rw [at2_arg1 m ρ c, at2_arg2 m ρ c])
theorem in1_v14 : V3 m ρ c main_v14 = Cert.Gnn.col (norm (m ((c : Thread nD τ).loc main_arg2))) :=
  at3_v14 m ρ c
theorem in1_arg4 : V3 m ρ c main_arg4 = m ((c : Thread nD τ).loc main_arg4) :=
  at3_arg4 m ρ c
theorem in1_v10 : V3 m ρ c main_v10 = Cert.Gnn.col (norm (m ((c : Thread nD τ).loc main_arg1))) :=
  at3_v10 m ρ c
theorem in1_arg5 : V3 m ρ c main_arg5 = m ((c : Thread nD τ).loc main_arg5) :=
  at3_arg5 m ρ c

/-! ## Region 2 reads the second aggregation, both norms, the second bias, the third weights -/
theorem in2_v36 : V5 m ρ c main_v36 = agg (m ((c : Thread nD τ).loc main_arg1)) (m ((c : Thread nD τ).loc main_arg2)) (W4 m ρ c (Proc.devRef .tc main_v26)) :=
  (host2_v36 m ρ c).trans (by rw [at4_arg1 m ρ c, at4_arg2 m ρ c])
theorem in2_v14 : V5 m ρ c main_v14 = Cert.Gnn.col (norm (m ((c : Thread nD τ).loc main_arg2))) :=
  at5_v14 m ρ c
theorem in2_arg6 : V5 m ρ c main_arg6 = m ((c : Thread nD τ).loc main_arg6) :=
  at5_arg6 m ρ c
theorem in2_v10 : V5 m ρ c main_v10 = Cert.Gnn.col (norm (m ((c : Thread nD τ).loc main_arg1))) :=
  at5_v10 m ρ c
theorem in2_arg7 : V5 m ρ c main_arg7 = m ((c : Thread nD τ).loc main_arg7) :=
  at5_arg7 m ρ c

/-! ## Region 3 reads the third aggregation, the destination norms, the third bias -/
theorem in3_v47 : V7 m ρ c main_v47 = agg' (m ((c : Thread nD τ).loc main_arg1)) (m ((c : Thread nD τ).loc main_arg2)) (W6 m ρ c (Proc.devRef .tc main_v37)) :=
  (host3_v47 m ρ c).trans (by rw [at6_arg1 m ρ c, at6_arg2 m ρ c])
theorem in3_v14 : V7 m ρ c main_v14 = Cert.Gnn.col (norm (m ((c : Thread nD τ).loc main_arg2))) :=
  at7_v14 m ρ c
theorem in3_arg8 : V7 m ρ c main_arg8 = m ((c : Thread nD τ).loc main_arg8) :=
  at7_arg8 m ρ c

end Cert.Gnn.Kernel

end
-- ==== Proof.LibMatRead.lean ====
/-
  Two matrix products read at an index, over the extended reals, for any dimension record with the stated axes: the
  product that contracts the second axis of both operands (rows against rows), and the one that contracts the second
  axis of the left with the first of the right (rows against columns). Into a zero accumulator each is the plain sum
  over the shared axis of the products of the entries; the contraction's index type has one coordinate, and the sum is
  re-indexed by it.
-/
import Idealize.ShloMosaic.PureOps.Ideal.Laws
import Idealize.ShloMosaic.Lib.ValueIdx

noncomputable section
open scoped BigOperators
open Idealize.ShloMosaic Idealize.ShloMosaic.ValueIdx

namespace Cert.MatRead

/-- A product that contracts the second axis of both operands, into a zero accumulator, read at an index: the sum over
    the shared axis of row `a` of the left operand times row `b` of the right. -/
theorem matmul_rows_apply {m k n : Nat} {φ₁ φ₂ : FTy}
    (d : DotDims ⟨2, ![m, k]⟩ ⟨2, ![n, k]⟩ ⟨2, ![m, n]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (A : FVec Ideal ⟨2, ![m, k]⟩ φ₁) (B : FVec Ideal ⟨2, ![n, k]⟩ φ₂) (a : Fin m) (b : Fin n) :
    FloatOps.matmul d prec A B (constant ⟨2, ![m, n]⟩ .f32 0x00000000#32) (ix2 a b)
      = ∑ c : Fin k, A (ix2 a c) * B (ix2 b c) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 b c := by
    funext ax; apply Fin.ext
    match ax with
    | ⟨0, _⟩ => simp [DotDims.rhsIdx, hrc, hrn, hrb]; exact key1 _ _ (by simp [hlb, hln, hrn])
    | ⟨1, _⟩ => exact (d.rhsIdx_val_of_single hrc _ _).trans c2
  rw [l2, r2]

/-- A product that contracts the second axis of the left operand with the first of the right, into a zero accumulator,
    read at an index: row `a` of the left operand times column `b` of the right. -/
theorem matmul_row_col_apply {m k n : Nat} {φ₁ φ₂ : FTy}
    (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![m, k]⟩ φ₁) (B : FVec Ideal ⟨2, ![k, n]⟩ φ₂) (a : Fin m) (b : Fin n) :
    FloatOps.matmul d prec A B (constant ⟨2, ![m, n]⟩ .f32 0x00000000#32) (ix2 a b)
      = ∑ c : Fin k, A (ix2 a c) * B (ix2 c b) := by
  have hr1 : d.contr.rank = 1 := by rw [d.rank_contr, hlc]; rfl
  have hs : d.contr.size ⟨0, by omega⟩ = k := by
    have h := d.size_contr 0 (by rw [hlc]; exact Nat.one_pos)
    simp only [hlc] at h
    exact h
  have key0 : ∀ (i : Nat) (h : i < 2), i = 0 → ((ix2 a b ⟨i, h⟩).val : Nat) = a.val := by
    intro i h hi; subst hi; rfl
  have key1 : ∀ (i : Nat) (h : i < 2), i = 1 → ((ix2 a b ⟨i, h⟩).val : Nat) = b.val := by
    intro i h hi; subst hi; rfl
  rw [Ideal.matmul_constant_zero_apply, ← Equiv.sum_comp (contrEquiv1 d k hr1 hs).symm]
  refine Finset.sum_congr rfl fun c _ => ?_
  have c2 := contrEquiv1_symm_val d k hr1 hs c
  have l2 : d.lhsIdx (ix2 a b) ((contrEquiv1 d k hr1 hs).symm c) = ix2 a c := by
    funext ax; apply Fin.ext
    match ax with
    | ⟨0, _⟩ => simp [DotDims.lhsIdx, hlc, hln, hlb]; exact key0 _ _ (by simp [hlb, hln])
    | ⟨1, _⟩ => exact (d.lhsIdx_val_of_single hlc _ _).trans c2
  have r2 : d.rhsIdx (ix2 a b) ((contrEquiv1 d k hr1 hs).symm c) = ix2 c b := by
    funext ax; apply Fin.ext
    match ax with
    | ⟨0, _⟩ => exact (d.rhsIdx_val_of_single hrc _ _).trans c2
    | ⟨1, _⟩ => simp [DotDims.rhsIdx, hrc, hrn, hrb]; exact key1 _ _ (by simp [hlb, hln, hrn])
  rw [l2, r2]

end Cert.MatRead
-- ==== Proof.LibColBroadcast.lean ====
/-
  One column repeated over many: an `[a, 1]` array broadcast to `[a, b]` reads, at `(p, c)`, the operand's one column
  at row `p`.
-/
import Idealize.ShloMosaic.Lib.Pipeline.Value
import Idealize.ShloMosaic.Lib.ValueIdx

open Idealize.ShloMosaic Idealize.ShloMosaic.ValueIdx

namespace Cert.ColBroadcast

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColBroadcast
-- ==== Proof.BodyValues.lean ====
/-
  The four block bodies read at an index, over the extended reals.

  Each body is a chain of pointwise operations (product, sum, maximum, a narrowing that is the identity on the
  extended reals), of layout operations (a cast to the same shape, a vector cast to one row, one column or one row
  repeated over a block) and, for the first three, a matrix product into a zero accumulator.  Read at `(p, j)` the
  chain is the arithmetic of the entries: the column arrays are read at `(p, 0)`, the row arrays at their column, and
  the product is the sum over the shared axis.
-/
import proofs.«156591_j23038204575791_1_alg».proof.Proof.Gen.KernelIdeal.Skeleton
import proofs.«156591_j23038204575791_1_alg».proof.Proof.LibMatRead
import proofs.«156591_j23038204575791_1_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

noncomputable section
open scoped BigOperators
open Cert.KernelIdeal Cert.KernelIdeal.Gen Idealize.ShloMosaic Idealize.ShloMosaic.ValueIdx

namespace Cert.Gnn.Body

/-- The last body at `(p, j)`: the entry scaled by the row's norm, plus the column's bias. -/
theorem pay3_apply (v0 : Vec Ideal S5000x64 .f32) (v2 : Vec Ideal S5000x1 .f32) (v6 : Vec Ideal S64 .f32) (p : Fin 5000) (j : Fin 64) :
    k3_pay1 (F := Ideal) v0 v2 v6 (ix2 p j) = v0 (ix2 p j) * v2 (ix2 p (0 : Fin 1)) + v6 (ix1 j) := by
  unfold k3_pay1
  rw [addf_apply, mulf_apply, shapeCast_self, shapeCast_self,
    Cert.ColBroadcast.broadcastTo_a1_ab_apply, broadcastTo_1b_ab_apply, shapeCast_a_1a_apply]

/-- The first body at `(p, j)`: row `p` scaled by its norm, times column `j` of the weights. -/
theorem pay0_apply (v0 : Vec Ideal S5000x128 .f32) (v1 : Vec Ideal S5000x1 .f32) (v6 : Vec Ideal S128x128 .f32) (p : Fin 5000) (j : Fin 128) :
    k0_pay1 (F := Ideal) v0 v1 v6 (ix2 p j) = ∑ k : Fin 128, (v0 (ix2 p k) * v1 (ix2 p (0 : Fin 1))) * v6 (ix2 k j) := by
  unfold k0_pay1
  refine (Cert.MatRead.matmul_row_col_apply dot_S5000x128_S128x128_S5000x128_1_0_0_1_n_n rfl rfl rfl rfl rfl rfl none _ _ p j).trans ?_
  refine Finset.sum_congr rfl fun k _ => ?_
  rw [truncf_apply, truncf_apply, mulf_apply, shapeCast_self, Cert.ColBroadcast.broadcastTo_a1_ab_apply]

/-- The second body at `(p, j)`: the aggregated row `p` scaled by the destination norm plus the bias, clamped at zero,
    scaled by the source norm, times column `j` of the weights. -/
theorem pay1_apply (v0 : Vec Ideal S5000x128 .f32) (v2 : Vec Ideal S5000x1 .f32) (v6 : Vec Ideal S128 .f32) (v12 : Vec Ideal S5000x1 .f32) (v17 : Vec Ideal S128x128 .f32) (p : Fin 5000) (j : Fin 128) :
    k1_pay1 (F := Ideal) v0 v2 v6 v12 v17 (ix2 p j)
      = ∑ k : Fin 128, (max (v0 (ix2 p k) * v2 (ix2 p (0 : Fin 1)) + v6 (ix1 k)) (Ideal.ofBits .f32 0x00000000#32) * v12 (ix2 p (0 : Fin 1))) * v17 (ix2 k j) := by
  unfold k1_pay1
  refine (Cert.MatRead.matmul_row_col_apply dot_S5000x128_S128x128_S5000x128_1_0_0_1_n_n rfl rfl rfl rfl rfl rfl none _ _ p j).trans ?_
  refine Finset.sum_congr rfl fun k _ => ?_
  rw [truncf_apply, truncf_apply, mulf_apply, maximumf_apply, addf_apply, mulf_apply, broadcast_apply,
    shapeCast_self, shapeCast_self, shapeCast_self,
    Cert.ColBroadcast.broadcastTo_a1_ab_apply, Cert.ColBroadcast.broadcastTo_a1_ab_apply,
    broadcastTo_1b_ab_apply, shapeCast_a_1a_apply]
  exact congrArg (fun z => max (v0 (ix2 p k) * v2 (ix2 p (0 : Fin 1)) + v6 (ix1 k)) z * v12 (ix2 p (0 : Fin 1)) * v17 (ix2 k j))
    (Ideal.ofBits_def (φ := .f32) 0x00000000#32)

/-- The third body at `(p, j)`: as the second, against weights of 64 columns. -/
theorem pay2_apply (v0 : Vec Ideal S5000x128 .f32) (v2 : Vec Ideal S5000x1 .f32) (v6 : Vec Ideal S128 .f32) (v12 : Vec Ideal S5000x1 .f32) (v17 : Vec Ideal S128x64 .f32) (p : Fin 5000) (j : Fin 64) :
    k2_pay1 (F := Ideal) v0 v2 v6 v12 v17 (ix2 p j)
      = ∑ k : Fin 128, (max (v0 (ix2 p k) * v2 (ix2 p (0 : Fin 1)) + v6 (ix1 k)) (Ideal.ofBits .f32 0x00000000#32) * v12 (ix2 p (0 : Fin 1))) * v17 (ix2 k j) := by
  unfold k2_pay1
  refine (Cert.MatRead.matmul_row_col_apply dot_S5000x128_S128x64_S5000x64_1_0_0_1_n_n rfl rfl rfl rfl rfl rfl none _ _ p j).trans ?_
  refine Finset.sum_congr rfl fun k _ => ?_
  rw [truncf_apply, truncf_apply, mulf_apply, maximumf_apply, addf_apply, mulf_apply, broadcast_apply,
    shapeCast_self, shapeCast_self, shapeCast_self,
    Cert.ColBroadcast.broadcastTo_a1_ab_apply, Cert.ColBroadcast.broadcastTo_a1_ab_apply,
    broadcastTo_1b_ab_apply, shapeCast_a_1a_apply]
  exact congrArg (fun z => max (v0 (ix2 p k) * v2 (ix2 p (0 : Fin 1)) + v6 (ix1 k)) z * v12 (ix2 p (0 : Fin 1)) * v17 (ix2 k j))
    (Ideal.ofBits_def (φ := .f32) 0x00000000#32)

end Cert.Gnn.Body
-- ==== Proof.Regions.lean ====
/-
  Each of the four block-wise regions' output array after the region's run, as one function of the arrays the region
  finds on entry.

  A region runs over 20 points; point `t` handles rows `5000·t … 5000·t + 4999` of the node arrays, and reads the
  weight and bias arrays whole at every point.  So a block's entry `(p, q)` at point `t` is the array's entry
  `(5000·t + p, q)`; the body's arithmetic at a block index is then the layer step at the array's index, what point
  `t` writes back is block `t` of the layer step of the whole arrays, and the 20 blocks cover the rows (row `r` is in
  block `r / 5000`).
-/
import proofs.«156591_j23038204575791_1_alg».proof.Proof.KernelIdealFrame
import proofs.«156591_j23038204575791_1_alg».proof.Proof.ColSpec
import proofs.«156591_j23038204575791_1_alg».proof.Proof.BodyValues
import Idealize.ShloMosaic.Lib.Pipeline.Value
import Idealize.ShloMosaic.Lib.ValueIdx

set_option maxRecDepth 16384

noncomputable section
open scoped BigOperators
open Cert.KernelIdeal Cert.KernelIdeal.Gen Idealize.ShloMosaic Idealize.ShloMosaic.TcCoe Idealize.ShloMosaic.ValueIdx Idealize.SL.Sem
open Idealize.ShloMosaic.Pipeline (Dat Cfg Window)

namespace Cert.Gnn.Regions

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-! ## The first region: scale by the source norm, multiply by the weights -/

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) (p : Fin 5000) : t.val * 5000 + p.val < 100000 := by
  have hN : t.val < 20 := lt_of_lt_of_eq t.isLt N_0
  have := p.isLt
  omega

theorem iblk0_0_apply (c : Dev nD) (t : Fin cfg0.N) (p : Fin 5000) (q : Fin 128) :
    (iblk0 V c 0 t : Vec Ideal S5000x128 .f32) (ix2 p q) = (V c main_arg0 : S100000x128.Idx → Elt Ideal .f32) (ix2 ⟨t.val * 5000 + p.val, lt0 t p⟩ q) := by
  obtain ⟨e0, e1, -⟩ := idx_facts0 t
  show V c main_arg0 (((cfg0.win 0).blk t).view.emb (ix2 p q)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

theorem iblk0_1_apply (c : Dev nD) (t : Fin cfg0.N) (p : Fin 5000) (q : Fin 1) :
    (iblk0 V c 1 t : Vec Ideal S5000x1 .f32) (ix2 p q) = (V c main_v10 : S100000x1.Idx → Elt Ideal .f32) (ix2 ⟨t.val * 5000 + p.val, lt0 t p⟩ (0 : Fin 1)) := by
  obtain ⟨-, -, e2, e3, -⟩ := idx_facts0 t
  show V c main_v10 (((cfg0.win 1).blk t).view.emb (ix2 p q)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * q.val = 0; have := q.isLt; omega

theorem iblk0_2_apply (c : Dev nD) (t : Fin cfg0.N) (k : Fin 128) (q : Fin 128) :
    (iblk0 V c 2 t : Vec Ideal S128x128 .f32) (ix2 k q) = (V c main_arg3 : S128x128.Idx → Elt Ideal .f32) (ix2 k q) := by
  obtain ⟨-, -, -, -, e4, e5, -⟩ := idx_facts0 t
  show V c main_arg3 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem emb0_3 (t : Fin cfg0.N) (p : Fin 5000) (q : Fin 128) :
    ((cfg0.win 3).blk t).view.emb (ix2 p q) = ix2 ⟨t.val * 5000 + p.val, lt0 t p⟩ q := by
  obtain ⟨-, -, -, -, -, -, e6, e7⟩ := idx_facts0 t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

theorem flushed0_eq (c : Dev nD) (t : Fin cfg0.N) :
    (dat0 V c).flushed 3 t = ((cfg0.win 3).blk t).view.read (Elt Ideal)
      (Cert.Gnn.scaleMulC 128 (V c main_arg0) (V c main_v10) (V c main_arg3)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  refine (Cert.Gnn.Body.pay0_apply _ _ _ p q).trans ?_
  refine (Finset.sum_congr rfl fun k _ => congrArg₂ (fun (a b : Ideal .f32) => a * b)
    (congrArg₂ (fun (a b : Ideal .f32) => a * b) (iblk0_0_apply V c t p k) (iblk0_1_apply V c t p 0)) (iblk0_2_apply V c t k q)).trans ?_
  exact (congrArg (Cert.Gnn.scaleMulC 128 (V c main_arg0) (V c main_v10) (V c main_arg3)) (emb0_3 t p q)).symm

theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v15).slice (win0_3.rect t)).set ↔ _
  rw [View.set_slice_whole, Rect.mem_set_unit]
  exact Iff.rfl

theorem final0 (c : Dev nD) : (dat0 V c).arrAt 3 cfg0.N = Cert.Gnn.scaleMulC 128 (V c main_arg0) (V c main_v10) (V c main_arg3) := by
  refine (dat0 V c).arrAt_eq_of_cover 3 _ (fun t _ => flushed0_eq V c t) fun i => ?_
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0]
  obtain ⟨-, -, -, -, -, -, e6, e7⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-! ## The second region: scale and bias, clamp, scale by the source norm, multiply by the weights -/

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) (p : Fin 5000) : t.val * 5000 + p.val < 100000 := by
  have hN : t.val < 20 := lt_of_lt_of_eq t.isLt N_1
  have := p.isLt
  omega

theorem iblk1_0_apply (c : Dev nD) (t : Fin cfg1.N) (p : Fin 5000) (q : Fin 128) :
    (iblk1 V c 0 t : Vec Ideal S5000x128 .f32) (ix2 p q) = (V c main_v25 : S100000x128.Idx → Elt Ideal .f32) (ix2 ⟨t.val * 5000 + p.val, lt1 t p⟩ q) := by
  obtain ⟨e0, e1, -⟩ := idx_facts1 t
  show V c main_v25 (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

theorem iblk1_1_apply (c : Dev nD) (t : Fin cfg1.N) (p : Fin 5000) (q : Fin 1) :
    (iblk1 V c 1 t : Vec Ideal S5000x1 .f32) (ix2 p q) = (V c main_v14 : S100000x1.Idx → Elt Ideal .f32) (ix2 ⟨t.val * 5000 + p.val, lt1 t p⟩ (0 : Fin 1)) := by
  obtain ⟨-, -, e2, e3, -⟩ := idx_facts1 t
  show V c main_v14 (((cfg1.win 1).blk t).view.emb (ix2 p q)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * q.val = 0; have := q.isLt; omega

theorem iblk1_2_apply (c : Dev nD) (t : Fin cfg1.N) (k : Fin 128) :
    (iblk1 V c 2 t : Vec Ideal S128 .f32) (ix1 k) = (V c main_arg4 : S128.Idx → Elt Ideal .f32) (ix1 k) := by
  obtain ⟨-, -, -, -, e4, -⟩ := idx_facts1 t
  show V c main_arg4 (((cfg1.win 2).blk t).view.emb (ix1 k)) = _
  refine congrArg _ (funext fun a => Fin.ext ?_)
  match a with
  | ⟨0, _⟩ => show win1_2.index t (0 : Fin 1) * 128 + 1 * k.val = k.val; omega

theorem iblk1_3_apply (c : Dev nD) (t : Fin cfg1.N) (p : Fin 5000) (q : Fin 1) :
    (iblk1 V c 3 t : Vec Ideal S5000x1 .f32) (ix2 p q) = (V c main_v10 : S100000x1.Idx → Elt Ideal .f32) (ix2 ⟨t.val * 5000 + p.val, lt1 t p⟩ (0 : Fin 1)) := by
  obtain ⟨-, -, -, -, -, e5, e6, -⟩ := idx_facts1 t
  show V c main_v10 (((cfg1.win 3).blk t).view.emb (ix2 p q)) = _
  refine congrArg _ (funext fun a => Fin.ext ?_)
  match a with
  | ⟨0, _⟩ => show win1_3.index t (0 : Fin 2) * 5000 + 1 * p.val = t.val * 5000 + p.val; omega
  | ⟨1, _⟩ => show win1_3.index t (1 : Fin 2) * 1 + 1 * q.val = 0; have := q.isLt; omega

theorem iblk1_4_apply (c : Dev nD) (t : Fin cfg1.N) (k : Fin 128) (q : Fin 128) :
    (iblk1 V c 4 t : Vec Ideal S128x128 .f32) (ix2 k q) = (V c main_arg5 : S128x128.Idx → Elt Ideal .f32) (ix2 k q) := by
  obtain ⟨-, -, -, -, -, -, -, e7, e8, -⟩ := idx_facts1 t
  show V c main_arg5 (((cfg1.win 4).blk t).view.emb (ix2 k q)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem emb1_5 (t : Fin cfg1.N) (p : Fin 5000) (q : Fin 128) :
    ((cfg1.win 5).blk t).view.emb (ix2 p q) = ix2 ⟨t.val * 5000 + p.val, lt1 t p⟩ q := by
  obtain ⟨-, -, -, -, -, -, -, -, -, e9, e10⟩ := idx_facts1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

theorem flushed1_eq (c : Dev nD) (t : Fin cfg1.N) :
    (dat1 V c).flushed 5 t = ((cfg1.win 5).blk t).view.read (Elt Ideal)
      (Cert.Gnn.clampScaleMulC 128 (V c main_v25) (V c main_v14) (V c main_arg4) (V c main_v10) (V c main_arg5)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128) hz1,
    View.ld_unit_zero (S := S128x128) hz]
  funext j
  obtain ⟨p, q, rfl⟩ : ∃ (p : Fin 5000) (q : Fin 128), j = ix2 p q := ⟨j 0, j 1, eq_ix2 j⟩
  refine (Cert.Gnn.Body.pay1_apply _ _ _ _ _ p q).trans ?_
  refine (Finset.sum_congr rfl fun k _ => congrArg₂ (fun (x y : Ideal .f32) => x * y)
    (congrArg₂ (fun (x y : Ideal .f32) => x * y)
      (congrArg (fun x : Ideal .f32 => max x (Ideal.ofBits .f32 0x00000000#32))
        (congrArg₂ (fun (x y : Ideal .f32) => x + y)
          (congrArg₂ (fun (x y : Ideal .f32) => x * y) (iblk1_0_apply V c t p k) (iblk1_1_apply V c t p 0))
          (iblk1_2_apply V c t k)))
      (iblk1_3_apply V c t p 0))
    (iblk1_4_apply V c t k q)).trans ?_
  exact (congrArg (Cert.Gnn.clampScaleMulC 128 (V c main_v25) (V c main_v14) (V c main_arg4) (V c main_v10) (V c main_arg5)) (emb1_5 t p q)).symm

theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

theorem final1 (c : Dev nD) : (dat1 V c).arrAt 5 cfg1.N = Cert.Gnn.clampScaleMulC 128 (V c main_v25) (V c main_v14) (V c main_arg4) (V c main_v10) (V c main_arg5) := by
  refine (dat1 V c).arrAt_eq_of_cover 5 _ (fun t _ => flushed1_eq V c t) fun i => ?_
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk1]
  obtain ⟨-, -, -, -, -, -, -, -, -, e9, e10⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e9]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e10]; omega

/-! ## The third region: as the second, against weights of 64 columns -/

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt2 (t : Fin cfg2.N) (p : Fin 5000) : t.val * 5000 + p.val < 100000 := by
  have hN : t.val < 20 := lt_of_lt_of_eq t.isLt N_2
  have := p.isLt
  omega

theorem iblk2_0_apply (c : Dev nD) (t : Fin cfg2.N) (p : Fin 5000) (q : Fin 128) :
    (iblk2 V c 0 t : Vec Ideal S5000x128 .f32) (ix2 p q) = (V c main_v36 : S100000x128.Idx → Elt Ideal .f32) (ix2 ⟨t.val * 5000 + p.val, lt2 t p⟩ q) := by
  obtain ⟨e0, e1, -⟩ := idx_facts2 t
  show V c main_v36 (((cfg2.win 0).blk t).view.emb (ix2 p q)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

theorem iblk2_1_apply (c : Dev nD) (t : Fin cfg2.N) (p : Fin 5000) (q : Fin 1) :
    (iblk2 V c 1 t : Vec Ideal S5000x1 .f32) (ix2 p q) = (V c main_v14 : S100000x1.Idx → Elt Ideal .f32) (ix2 ⟨t.val * 5000 + p.val, lt2 t p⟩ (0 : Fin 1)) := by
  obtain ⟨-, -, e2, e3, -⟩ := idx_facts2 t
  show V c main_v14 (((cfg2.win 1).blk t).view.emb (ix2 p q)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * q.val = 0; have := q.isLt; omega

theorem iblk2_2_apply (c : Dev nD) (t : Fin cfg2.N) (k : Fin 128) :
    (iblk2 V c 2 t : Vec Ideal S128 .f32) (ix1 k) = (V c main_arg6 : S128.Idx → Elt Ideal .f32) (ix1 k) := by
  obtain ⟨-, -, -, -, e4, -⟩ := idx_facts2 t
  show V c main_arg6 (((cfg2.win 2).blk t).view.emb (ix1 k)) = _
  refine congrArg _ (funext fun a => Fin.ext ?_)
  match a with
  | ⟨0, _⟩ => show win2_2.index t (0 : Fin 1) * 128 + 1 * k.val = k.val; omega

theorem iblk2_3_apply (c : Dev nD) (t : Fin cfg2.N) (p : Fin 5000) (q : Fin 1) :
    (iblk2 V c 3 t : Vec Ideal S5000x1 .f32) (ix2 p q) = (V c main_v10 : S100000x1.Idx → Elt Ideal .f32) (ix2 ⟨t.val * 5000 + p.val, lt2 t p⟩ (0 : Fin 1)) := by
  obtain ⟨-, -, -, -, -, e5, e6, -⟩ := idx_facts2 t
  show V c main_v10 (((cfg2.win 3).blk t).view.emb (ix2 p q)) = _
  refine congrArg _ (funext fun a => Fin.ext ?_)
  match a with
  | ⟨0, _⟩ => show win2_3.index t (0 : Fin 2) * 5000 + 1 * p.val = t.val * 5000 + p.val; omega
  | ⟨1, _⟩ => show win2_3.index t (1 : Fin 2) * 1 + 1 * q.val = 0; have := q.isLt; omega

theorem iblk2_4_apply (c : Dev nD) (t : Fin cfg2.N) (k : Fin 128) (q : Fin 64) :
    (iblk2 V c 4 t : Vec Ideal S128x64 .f32) (ix2 k q) = (V c main_arg7 : S128x64.Idx → Elt Ideal .f32) (ix2 k q) := by
  obtain ⟨-, -, -, -, -, -, -, e7, e8, -⟩ := idx_facts2 t
  show V c main_arg7 (((cfg2.win 4).blk t).view.emb (ix2 k q)) = _
  refine congrArg _ (funext fun a => Fin.ext ?_)
  match a with
  | ⟨0, _⟩ => show win2_4.index t (0 : Fin 2) * 128 + 1 * k.val = k.val; omega
  | ⟨1, _⟩ => show win2_4.index t (1 : Fin 2) * 64 + 1 * q.val = q.val; omega

theorem emb2_5 (t : Fin cfg2.N) (p : Fin 5000) (q : Fin 64) :
    ((cfg2.win 5).blk t).view.emb (ix2 p q) = ix2 ⟨t.val * 5000 + p.val, lt2 t p⟩ q := by
  obtain ⟨-, -, -, -, -, -, -, -, -, e9, e10⟩ := idx_facts2 t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

theorem flushed2_eq (c : Dev nD) (t : Fin cfg2.N) :
    (dat2 V c).flushed 5 t = ((cfg2.win 5).blk t).view.read (Elt Ideal)
      (Cert.Gnn.clampScaleMulC 64 (V c main_v36) (V c main_v14) (V c main_arg6) (V c main_v10) (V c main_arg7)) := by
  show (cfg2.win 5).cut (grid2.coords t) ((dat2 V c).after 5 t) = _
  rw [after2_5]
  unfold out2_5
  rw [View.canon_unit_zero hz]
  simp only [View.ld_unit_zero (S := S5000x128) hz, View.ld_unit_zero (S := S5000x1) hz, View.ld_unit_zero (S := S128) hz1,
    View.ld_unit_zero (S := S128x64) hz]
  funext j
  obtain ⟨p, q, rfl⟩ : ∃ (p : Fin 5000) (q : Fin 64), j = ix2 p q := ⟨j 0, j 1, eq_ix2 j⟩
  refine (Cert.Gnn.Body.pay2_apply _ _ _ _ _ p q).trans ?_
  refine (Finset.sum_congr rfl fun k _ => congrArg₂ (fun (x y : Ideal .f32) => x * y)
    (congrArg₂ (fun (x y : Ideal .f32) => x * y)
      (congrArg (fun x : Ideal .f32 => max x (Ideal.ofBits .f32 0x00000000#32))
        (congrArg₂ (fun (x y : Ideal .f32) => x + y)
          (congrArg₂ (fun (x y : Ideal .f32) => x * y) (iblk2_0_apply V c t p k) (iblk2_1_apply V c t p 0))
          (iblk2_2_apply V c t k)))
      (iblk2_3_apply V c t p 0))
    (iblk2_4_apply V c t k q)).trans ?_
  exact (congrArg (Cert.Gnn.clampScaleMulC 64 (V c main_v36) (V c main_v14) (V c main_arg6) (V c main_v10) (V c main_arg7)) (emb2_5 t p q)).symm

theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v37).slice (win2_5.rect t)).set ↔ _
  rw [View.set_slice_whole, Rect.mem_set_unit]
  exact Iff.rfl

theorem final2 (c : Dev nD) : (dat2 V c).arrAt 5 cfg2.N = Cert.Gnn.clampScaleMulC 64 (V c main_v36) (V c main_v14) (V c main_arg6) (V c main_v10) (V c main_arg7) := by
  refine (dat2 V c).arrAt_eq_of_cover 5 _ (fun t _ => flushed2_eq V c t) fun i => ?_
  have hi0 : (i 0).val < 100000 := (i 0).isLt
  have hi1 : (i 1).val < 64 := (i 1).isLt
  have hN : cfg2.N = 20 := N_2
  refine ⟨⟨(i 0).val / 5000, by rw [hN]; omega⟩, flush2_5 _, ?_⟩
  rw [mem_blk2]
  obtain ⟨-, -, -, -, -, -, -, -, -, e9, e10⟩ := idx_facts2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e9]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e10]; omega

/-! ## The last region: scale by the destination norm, add the bias -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

theorem lt3 (t : Fin cfg3.N) (p : Fin 5000) : t.val * 5000 + p.val < 100000 := by
  have hN : t.val < 20 := lt_of_lt_of_eq t.isLt N_3
  have := p.isLt
  omega

theorem iblk3_0_apply (c : Dev nD) (t : Fin cfg3.N) (p : Fin 5000) (q : Fin 64) :
    (iblk3 V c 0 t : Vec Ideal S5000x64 .f32) (ix2 p q) = (V c main_v47 : S100000x64.Idx → Elt Ideal .f32) (ix2 ⟨t.val * 5000 + p.val, lt3 t p⟩ q) := by
  obtain ⟨e0, e1, -⟩ := idx_facts3 t
  show V c main_v47 (((cfg3.win 0).blk t).view.emb (ix2 p q)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 64 + 1 * q.val = q.val; omega

theorem iblk3_1_apply (c : Dev nD) (t : Fin cfg3.N) (p : Fin 5000) (q : Fin 1) :
    (iblk3 V c 1 t : Vec Ideal S5000x1 .f32) (ix2 p q) = (V c main_v14 : S100000x1.Idx → Elt Ideal .f32) (ix2 ⟨t.val * 5000 + p.val, lt3 t p⟩ (0 : Fin 1)) := by
  obtain ⟨-, -, e2, e3, -⟩ := idx_facts3 t
  show V c main_v14 (((cfg3.win 1).blk t).view.emb (ix2 p q)) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * q.val = 0; have := q.isLt; omega

theorem iblk3_2_apply (c : Dev nD) (t : Fin cfg3.N) (q : Fin 64) :
    (iblk3 V c 2 t : Vec Ideal S64 .f32) (ix1 q) = (V c main_arg8 : S64.Idx → Elt Ideal .f32) (ix1 q) := by
  obtain ⟨-, -, -, -, e4, -⟩ := idx_facts3 t
  show V c main_arg8 (((cfg3.win 2).blk t).view.emb (ix1 q)) = _
  refine congrArg _ (funext fun a => Fin.ext ?_)
  match a with
  | ⟨0, _⟩ => show win3_2.index t (0 : Fin 1) * 64 + 1 * q.val = q.val; omega

theorem emb3_3 (t : Fin cfg3.N) (p : Fin 5000) (q : Fin 64) :
    ((cfg3.win 3).blk t).view.emb (ix2 p q) = ix2 ⟨t.val * 5000 + p.val, lt3 t p⟩ q := by
  obtain ⟨-, -, -, -, -, e5, e6⟩ := idx_facts3 t
  funext a; apply Fin.ext
  match a with
  | ⟨0, _⟩ => show win3_3.index t (0 : Fin 2) * 5000 + 1 * p.val = t.val * 5000 + p.val; omega
  | ⟨1, _⟩ => show win3_3.index t (1 : Fin 2) * 64 + 1 * q.val = q.val; omega

theorem flushed3_eq (c : Dev nD) (t : Fin cfg3.N) :
    (dat3 V c).flushed 3 t = ((cfg3.win 3).blk t).view.read (Elt Ideal)
      (Cert.Gnn.scaleBiasC 64 (V c main_v47) (V c main_v14) (V c main_arg8)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S64) hz1]
  funext j
  obtain ⟨p, q, rfl⟩ : ∃ (p : Fin 5000) (q : Fin 64), j = ix2 p q := ⟨j 0, j 1, eq_ix2 j⟩
  refine (Cert.Gnn.Body.pay3_apply _ _ _ p q).trans ?_
  refine (congrArg₂ (fun (a b : Ideal .f32) => a + b) (congrArg₂ (fun (a b : Ideal .f32) => a * b) (iblk3_0_apply V c t p q) (iblk3_1_apply V c t p 0)) (iblk3_2_apply V c t q)).trans ?_
  exact (congrArg (Cert.Gnn.scaleBiasC 64 (V c main_v47) (V c main_v14) (V c main_arg8)) (emb3_3 t p q)).symm

theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v48).slice (win3_3.rect t)).set ↔ _
  rw [View.set_slice_whole, Rect.mem_set_unit]
  exact Iff.rfl

theorem final3 (c : Dev nD) : (dat3 V c).arrAt 3 cfg3.N = Cert.Gnn.scaleBiasC 64 (V c main_v47) (V c main_v14) (V c main_arg8) := by
  refine (dat3 V c).arrAt_eq_of_cover 3 _ (fun t _ => flushed3_eq V c t) fun i => ?_
  have hi0 : (i 0).val < 100000 := (i 0).isLt
  have hi1 : (i 1).val < 64 := (i 1).isLt
  have hN : cfg3.N = 20 := N_3
  refine ⟨⟨(i 0).val / 5000, by rw [hN]; omega⟩, flush3_3 _, ?_⟩
  rw [mem_blk3]
  obtain ⟨-, -, -, -, -, e5, e6⟩ := idx_facts3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e5]; show (i 0).val / 5000 * 5000 ≤ (i 0).val ∧ (i 0).val < (i 0).val / 5000 * 5000 + 5000; omega
  | ⟨1, _⟩ =>
    show win3_3.index _ (1 : Fin 2) * 64 ≤ (i 1).val ∧ (i 1).val < win3_3.index _ (1 : Fin 2) * 64 + 64
    rw [e6]; omega

end Cert.Gnn.Regions
-- ==== Proof.KernelValue.lean ====
/-
  The idealized kernel program computes the three-layer network.  Each region's output array is the layer step of what
  the region reads (the blocks put together), what a region reads is the launch contents, the norms, or the
  aggregation of the region before; chained through the four regions, the result array is `Cert.Gnn.layers` of the
  argument arrays.
-/
import proofs.«156591_j23038204575791_1_alg».proof.Proof.KernelRun
import proofs.«156591_j23038204575791_1_alg».proof.Proof.Carry
import proofs.«156591_j23038204575791_1_alg».proof.Proof.Regions

set_option maxRecDepth 16384

noncomputable section

namespace Cert.Gnn.Kernel

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg) (c : Dev nD)

/-- Region 0 leaves the input rows scaled by the source norm, times the first weights. -/
theorem out0 : W2 m ρ c (Proc.devRef .tc main_v15)
    = Cert.Gnn.scaleMul 128 (m ((c : Thread nD τ).loc main_arg0)) (norm (m ((c : Thread nD τ).loc main_arg1))) (m ((c : Thread nD τ).loc main_arg3)) := by
  refine (W2_arr m ρ c 3).trans ?_
  rw [Cert.Gnn.Regions.final0 (V1 m ρ) c, in0_arg0, in0_v10, in0_arg3]
  exact Cert.Gnn.scaleMulC_col _ _ _ _

/-- Region 1 leaves the second layer's dense step of the first aggregation. -/
theorem out1 : W4 m ρ c (Proc.devRef .tc main_v26)
    = Cert.Gnn.clampScaleMul 128 (agg (m ((c : Thread nD τ).loc main_arg1)) (m ((c : Thread nD τ).loc main_arg2)) (W2 m ρ c (Proc.devRef .tc main_v15)))
        (norm (m ((c : Thread nD τ).loc main_arg2))) (m ((c : Thread nD τ).loc main_arg4)) (norm (m ((c : Thread nD τ).loc main_arg1))) (m ((c : Thread nD τ).loc main_arg5)) := by
  refine (W4_arr m ρ c 5).trans ?_
  rw [Cert.Gnn.Regions.final1 (V3 m ρ) c, in1_v25, in1_v14, in1_arg4, in1_v10, in1_arg5]
  exact Cert.Gnn.clampScaleMulC_col _ _ _ _ _ _

/-- Region 2 leaves the third layer's dense step of the second aggregation. -/
theorem out2 : W6 m ρ c (Proc.devRef .tc main_v37)
    = Cert.Gnn.clampScaleMul 64 (agg (m ((c : Thread nD τ).loc main_arg1)) (m ((c : Thread nD τ).loc main_arg2)) (W4 m ρ c (Proc.devRef .tc main_v26)))
        (norm (m ((c : Thread nD τ).loc main_arg2))) (m ((c : Thread nD τ).loc main_arg6)) (norm (m ((c : Thread nD τ).loc main_arg1))) (m ((c : Thread nD τ).loc main_arg7)) := by
  refine (W6_arr m ρ c 5).trans ?_
  rw [Cert.Gnn.Regions.final2 (V5 m ρ) c, in2_v36, in2_v14, in2_arg6, in2_v10, in2_arg7]
  exact Cert.Gnn.clampScaleMulC_col _ _ _ _ _ _

/-- Region 3 leaves the third aggregation scaled by the destination norm plus the last bias. -/
theorem out3 : W8 m ρ c (Proc.devRef .tc main_v48)
    = Cert.Gnn.scaleBias 64 (agg' (m ((c : Thread nD τ).loc main_arg1)) (m ((c : Thread nD τ).loc main_arg2)) (W6 m ρ c (Proc.devRef .tc main_v37)))
        (norm (m ((c : Thread nD τ).loc main_arg2))) (m ((c : Thread nD τ).loc main_arg8)) := by
  refine (W8_arr m ρ c 3).trans ?_
  rw [Cert.Gnn.Regions.final3 (V7 m ρ) c, in3_v47, in3_v14, in3_arg8]
  exact Cert.Gnn.scaleBiasC_col _ _ _ _

/-- The result array after the whole program is the three-layer network of the launch arrays. -/
theorem result_eq : W8 m ρ c (Proc.devRef .tc main_v48)
    = Cert.Gnn.layers (agg (m ((c : Thread nD τ).loc main_arg1)) (m ((c : Thread nD τ).loc main_arg2))) (agg' (m ((c : Thread nD τ).loc main_arg1)) (m ((c : Thread nD τ).loc main_arg2)))
        (norm (m ((c : Thread nD τ).loc main_arg1))) (norm (m ((c : Thread nD τ).loc main_arg2))) (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  rw [out3, out2, out1, out0]
  rfl

/-- The idealized kernel program's run: every weakly fair execution terminates with the result array at the network of
    the launch arrays, the arguments unchanged. -/
theorem run : θ_run (defs (F := Ideal)) (onTc (τ := τ) (main (F := Ideal))) ⟨m, fun _ => 0, ρ⟩ (fun r => ∀ c : Dev nD,
      r.2.mem ((c.tc : Thread nD τ).loc main_v48)
        = Cert.Gnn.layers (agg (m ((c : Thread nD τ).loc main_arg1)) (m ((c : Thread nD τ).loc main_arg2))) (agg' (m ((c : Thread nD τ).loc main_arg1)) (m ((c : Thread nD τ).loc main_arg2)))
            (norm (m ((c : Thread nD τ).loc main_arg1))) (norm (m ((c : Thread nD τ).loc main_arg2))) (m ((c : Thread nD τ).loc main_arg0)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named (F := Ideal) m ρ)

end Cert.Gnn.Kernel

end
-- ==== Proof.RefLayers.lean ====
/-
  The reference program's result is the three-layer graph convolution `Cert.Gnn.layers`.

  The program reads: the source and destination norms; layer 1 multiplies the input rows by the source norm and
  multiplies by the first weight matrix; each aggregation gathers the rows at the edges' sources and adds them into
  zeros at the edges' destinations; layers 2 and 3 scale the aggregated rows by the destination norm, add the bias,
  clamp at zero, scale by the source norm and multiply by the next weight matrix; the result scales the last
  aggregation by the destination norm and adds the last bias.  Each dense step is read entry by entry; the
  aggregations stay abstract.
-/
import proofs.«156591_j23038204575791_1_alg».proof.Proof.Gen.ReferenceIdeal.Read
import proofs.«156591_j23038204575791_1_alg».proof.Proof.Spec

noncomputable section
open scoped BigOperators
open Cert.ReferenceIdeal Cert.ReferenceIdeal.Gen Cert.ReferenceIdeal.Read
open Idealize.ShloMosaic Idealize.ShloMosaic.ValueIdx Idealize.ShloMosaic.StableHlo

namespace Cert.Gnn.Ref

/-- The aggregation on 128 columns, as the reference prints it: gather the rows at the (wrapped) source indices,
    scatter-add them at the destination indices into zeros. -/
def agg (x1 x2 : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v24 (F := Ideal)) (val_main_v25 (F := Ideal) x2)
    (Host.gather gather_S100000x128_S1600000x1_S1600000x128_1_0_n_n_0_1_1128 h (val_main_v22 (F := Ideal) x1))

/-- The aggregation on 64 columns: the same gather and scatter-add on the narrower rows. -/
def agg' (x1 x2 : (⟨S1600000, .i32⟩ : BufTy).Contents (Elt Ideal))
    (h : (⟨S100000x64, .f32⟩ : BufTy).Contents (Elt Ideal)) : (⟨S100000x64, .f32⟩ : BufTy).Contents (Elt Ideal) :=
  Host.scatterAdd (F := Ideal) (φ := .f32) scatter_S100000x64_S1600000x1_S1600000x64_1_0_0_1 (val_main_v66 (F := Ideal)) (val_main_v67 (F := Ideal) x2)
    (Host.gather gather_S100000x64_S1600000x1_S1600000x64_1_0_n_n_0_1_164 h (val_main_v64 (F := Ideal) x1))

/-- Layer 1: the input rows scaled by the source norm, times the first weight matrix. -/
theorem layer1 (x0 : (⟨S100000x128, .f32⟩ : BufTy).Contents (Elt Ideal))
    (x1 : (⟨S1600000, .i32⟩ : BufTy).Contents (Elt Ideal)) (x3 : (⟨S128x128, .f32⟩ : BufTy).Contents (Elt Ideal)) :
    val_main_v16 (F := Ideal) x0 x1 x3 = Cert.Gnn.scaleMul 128 x0 (val_main_v9 (F := Ideal) x1) x3 := by
  funext i
  obtain ⟨r, c, rfl⟩ : ∃ (r : Fin 100000) (c : Fin 128), i = ix2 r c := ⟨i 0, i 1, eq_ix2 i⟩
  rw [val_main_v16_apply]
  show _ = ∑ k : Fin 128, (x0 (ix2 r k) * val_main_v9 (F := Ideal) x1 (ix1 r)) * x3 (ix2 k c)
  refine Finset.sum_congr rfl fun k _ => ?_
  have e1 : lidx_main_v16 (ix2 r c) k = ix2 r k := funext fun a => Fin.ext (by
    match a with
    | ⟨0, _⟩ => rfl
    | ⟨1, _⟩ => rfl)
  have e2 : ridx_main_v16 (ix2 r c) k = ix2 k c := funext fun a => Fin.ext (by
    match a with
    | ⟨0, _⟩ => rfl
    | ⟨1, _⟩ => rfl)
  have e3 : idx_main_v13 (idx_main_v14 (ix2 r k)) = ix1 r := funext fun a => Fin.ext (by
    match a with
    | ⟨0, _⟩ => rfl)
  rw [e1, e2, val_main_v15_apply, val_main_v14_apply, val_main_v13_apply, e3]
  rfl

/-- Layer 2's dense step: the first aggregation scaled by the destination norm plus the bias, clamped at zero, scaled
    by the source norm, times the second weight matrix. -/
theorem layer2 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v37 (F := Ideal) x0 x1 x2 x3 x4 x5
      = Cert.Gnn.clampScaleMul 128 (val_main_v26 (F := Ideal) x0 x1 x2 x3) (val_main_v12 (F := Ideal) x2) x4
          (val_main_v9 (F := Ideal) x1) x5 := by
  funext i
  obtain ⟨r, c, rfl⟩ : ∃ (r : Fin 100000) (c : Fin 128), i = ix2 r c := ⟨i 0, i 1, eq_ix2 i⟩
  rw [val_main_v37_apply]
  show _ = ∑ k : Fin 128,
    (max (val_main_v26 (F := Ideal) x0 x1 x2 x3 (ix2 r k) * val_main_v12 (F := Ideal) x2 (ix1 r) + x4 (ix1 k))
      (Ideal.ofBits .f32 0x00000000#32) * val_main_v9 (F := Ideal) x1 (ix1 r)) * x5 (ix2 k c)
  refine Finset.sum_congr rfl fun k _ => ?_
  have e1 : lidx_main_v37 (ix2 r c) k = ix2 r k := funext fun a => Fin.ext (by
    match a with
    | ⟨0, _⟩ => rfl
    | ⟨1, _⟩ => rfl)
  have e2 : ridx_main_v37 (ix2 r c) k = ix2 k c := funext fun a => Fin.ext (by
    match a with
    | ⟨0, _⟩ => rfl
    | ⟨1, _⟩ => rfl)
  have e3 : idx_main_v27 (idx_main_v28 (ix2 r k)) = ix1 r := funext fun a => Fin.ext (by
    match a with
    | ⟨0, _⟩ => rfl)
  have e4 : idx_main_v30 (idx_main_v31 (ix2 r k)) = ix1 k := funext fun a => Fin.ext (by
    match a with
    | ⟨0, _⟩ => rfl)
  have e5 : idx_main_v34 (idx_main_v35 (ix2 r k)) = ix1 r := funext fun a => Fin.ext (by
    match a with
    | ⟨0, _⟩ => rfl)
  rw [e1, e2, val_main_v36_apply, val_main_v33_apply, val_main_v32_apply, val_main_v29_apply, val_main_v28_apply,
    val_main_v27_apply, e3, val_main_v31_apply, val_main_v30_apply, e4, val_main_v35_apply, val_main_v34_apply, e5,
    val_main_call0_v0_apply, val_main_call0_cst_apply]
  rfl

/-- Layer 3's dense step: the second aggregation scaled by the destination norm plus the bias, clamped at zero, scaled
    by the source norm, times the third weight matrix (64 columns). -/
theorem layer3 (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) :
    val_main_v58 (F := Ideal) x0 x1 x2 x3 x4 x5 x6 x7
      = Cert.Gnn.clampScaleMul 64 (val_main_v47 (F := Ideal) x0 x1 x2 x3 x4 x5) (val_main_v12 (F := Ideal) x2) x6
          (val_main_v9 (F := Ideal) x1) x7 := by
  funext i
  obtain ⟨r, c, rfl⟩ : ∃ (r : Fin 100000) (c : Fin 64), i = ix2 r c := ⟨i 0, i 1, eq_ix2 i⟩
  rw [val_main_v58_apply]
  show _ = ∑ k : Fin 128,
    (max (val_main_v47 (F := Ideal) x0 x1 x2 x3 x4 x5 (ix2 r k) * val_main_v12 (F := Ideal) x2 (ix1 r) + x6 (ix1 k))
      (Ideal.ofBits .f32 0x00000000#32) * val_main_v9 (F := Ideal) x1 (ix1 r)) * x7 (ix2 k c)
  refine Finset.sum_congr rfl fun k _ => ?_
  have e1 : lidx_main_v58 (ix2 r c) k = ix2 r k := funext fun a => Fin.ext (by
    match a with
    | ⟨0, _⟩ => rfl
    | ⟨1, _⟩ => rfl)
  have e2 : ridx_main_v58 (ix2 r c) k = ix2 k c := funext fun a => Fin.ext (by
    match a with
    | ⟨0, _⟩ => rfl
    | ⟨1, _⟩ => rfl)
  have e3 : idx_main_v48 (idx_main_v49 (ix2 r k)) = ix1 r := funext fun a => Fin.ext (by
    match a with
    | ⟨0, _⟩ => rfl)
  have e4 : idx_main_v51 (idx_main_v52 (ix2 r k)) = ix1 k := funext fun a => Fin.ext (by
    match a with
    | ⟨0, _⟩ => rfl)
  have e5 : idx_main_v55 (idx_main_v56 (ix2 r k)) = ix1 r := funext fun a => Fin.ext (by
    match a with
    | ⟨0, _⟩ => rfl)
  rw [e1, e2, val_main_v57_apply, val_main_v54_apply, val_main_v53_apply, val_main_v50_apply, val_main_v49_apply,
    val_main_v48_apply, e3, val_main_v52_apply, val_main_v51_apply, e4, val_main_v56_apply, val_main_v55_apply, e5,
    val_main_call1_v0_apply, val_main_call1_cst_apply]
  rfl

/-- The last step: the third aggregation scaled by the destination norm plus the last bias. -/
theorem layer_out (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal))
    (x8 : (⟨S64, .f32⟩ : BufTy).Contents (Elt Ideal)) :
    val_main_v74 (F := Ideal) x0 x1 x2 x3 x4 x5 x6 x7 x8
      = Cert.Gnn.scaleBias 64 (val_main_v68 (F := Ideal) x0 x1 x2 x3 x4 x5 x6 x7) (val_main_v12 (F := Ideal) x2) x8 := by
  funext i
  obtain ⟨r, c, rfl⟩ : ∃ (r : Fin 100000) (c : Fin 64), i = ix2 r c := ⟨i 0, i 1, eq_ix2 i⟩
  show _ = val_main_v68 (F := Ideal) x0 x1 x2 x3 x4 x5 x6 x7 (ix2 r c) * val_main_v12 (F := Ideal) x2 (ix1 r) + x8 (ix1 c)
  have e1 : idx_main_v69 (idx_main_v70 (ix2 r c)) = ix1 r := funext fun a => Fin.ext (by
    match a with
    | ⟨0, _⟩ => rfl)
  have e2 : idx_main_v72 (idx_main_v73 (ix2 r c)) = ix1 c := funext fun a => Fin.ext (by
    match a with
    | ⟨0, _⟩ => rfl)
  rw [val_main_v74_apply, val_main_v71_apply, val_main_v70_apply, val_main_v69_apply, e1, val_main_v73_apply,
    val_main_v72_apply, e2]
  rfl

/-- The zeros the second aggregation adds into are the first's: the same constant array. -/
theorem zeros_second : val_main_v45 (F := Ideal) = val_main_v24 (F := Ideal) := rfl

/-- The destination indices of the second aggregation are the first's: the same column of the same argument. -/
theorem dst_second (x2 : (⟨S1600000, .i32⟩ : BufTy).Contents (Elt Ideal)) : val_main_v46 (F := Ideal) x2 = val_main_v25 (F := Ideal) x2 := rfl

/-- The wrapped source indices of the second aggregation are the first's: the same wrap of the same argument. -/
theorem src_second (x1 : (⟨S1600000, .i32⟩ : BufTy).Contents (Elt Ideal)) : val_main_v43 (F := Ideal) x1 = val_main_v22 (F := Ideal) x1 := rfl

/-- The first gather and scatter-add is the aggregation of layer 1's product. -/
theorem agg_first (x0 : (⟨S100000x128, .f32⟩ : BufTy).Contents (Elt Ideal)) (x1 x2 : (⟨S1600000, .i32⟩ : BufTy).Contents (Elt Ideal)) (x3 : (⟨S128x128, .f32⟩ : BufTy).Contents (Elt Ideal)) :
    val_main_v26 (F := Ideal) x0 x1 x2 x3 = agg x1 x2 (val_main_v16 (F := Ideal) x0 x1 x3) := rfl

/-- The second gather and scatter-add is the aggregation of layer 2's product. -/
theorem agg_second (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v47 (F := Ideal) x0 x1 x2 x3 x4 x5 = agg x1 x2 (val_main_v37 (F := Ideal) x0 x1 x2 x3 x4 x5) := by
  unfold val_main_v47 val_main_v44 agg
  rw [zeros_second, dst_second, src_second]

/-- The third gather and scatter-add is the aggregation, on 64 columns, of layer 3's product. -/
theorem agg_third (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) :
    val_main_v68 (F := Ideal) x0 x1 x2 x3 x4 x5 x6 x7
      = agg' x1 x2 (val_main_v58 (F := Ideal) x0 x1 x2 x3 x4 x5 x6 x7) := rfl

/-- The reference program's result is the three-layer network over the two aggregations, the source norms and the
    destination norms. -/
theorem ref_layers (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal))
    (x8 : (⟨S64, .f32⟩ : BufTy).Contents (Elt Ideal)) :
    val_main_v74 (F := Ideal) x0 x1 x2 x3 x4 x5 x6 x7 x8
      = Cert.Gnn.layers (agg x1 x2) (agg' x1 x2) (val_main_v9 (F := Ideal) x1) (val_main_v12 (F := Ideal) x2)
          x0 x3 x4 x5 x6 x7 x8 := by
  unfold Cert.Gnn.layers
  rw [layer_out, agg_third, layer3, agg_second, layer2, agg_first, layer1]

end Cert.Gnn.Ref

end
-- ==== Proof.Bridge.lean ====
/-
  The host steps the two programs share are one function: the node norms and the two aggregations are printed with the
  same operations in both, so the kernel program's and the reference's are equal term by term.
-/
import proofs.«156591_j23038204575791_1_alg».proof.Proof.RefLayers
import proofs.«156591_j23038204575791_1_alg».proof.Proof.Carry

set_option maxRecDepth 16384

noncomputable section

namespace Cert.Gnn.Bridge

open Idealize.ShloMosaic

/-- The source and destination norms: the reference's stage is the kernel program's norm of the same index column. -/
theorem norm_src (x1 : (⟨Cert.KernelIdeal.S1600000, .i32⟩ : BufTy).Contents (Elt Ideal)) :
    Cert.ReferenceIdeal.Read.val_main_v9 (F := Ideal) x1 = Cert.Gnn.Kernel.norm x1 := rfl
theorem norm_dst (x2 : (⟨Cert.KernelIdeal.S1600000, .i32⟩ : BufTy).Contents (Elt Ideal)) :
    Cert.ReferenceIdeal.Read.val_main_v12 (F := Ideal) x2 = Cert.Gnn.Kernel.norm x2 := rfl
/-- The aggregations. -/
theorem agg_eq (x1 x2 : (⟨Cert.KernelIdeal.S1600000, .i32⟩ : BufTy).Contents (Elt Ideal)) :
    Cert.Gnn.Ref.agg x1 x2 = Cert.Gnn.Kernel.agg x1 x2 := rfl
theorem agg'_eq (x1 x2 : (⟨Cert.KernelIdeal.S1600000, .i32⟩ : BufTy).Contents (Elt Ideal)) :
    Cert.Gnn.Ref.agg' x1 x2 = Cert.Gnn.Kernel.agg' x1 x2 := rfl

end Cert.Gnn.Bridge

end
-- ==== Proof.lean ====
/-
  A three-layer graph convolution over a fixed graph of 100000 nodes and 1600000 edges (feature widths 128, 128, 128, 64):
  the kernel program runs the dense part of each layer in a Pallas kernel over blocks of 5000 rows and the edge
  aggregation (gather at the sources, add at the destinations) on the host; the reference is plain jnp.

  On the extended reals both programs compute `Cert.Gnn.layers`: with `n` and `d` the source and destination norms
  (the reciprocal square roots of the clamped degrees) and `A` the aggregation,
  `h₁ = A((x·n)W₁)`, `h₂ = A((max(h₁·d + b₁, 0)·n)W₂)`, `h₃ = A((max(h₂·d + b₂, 0)·n)W₃)`, result `h₃·d + b₃`.
  The kernel's matrix products into a zero accumulator are the reference's contractions, sum for sum and in the same
  order; a change of float format is the identity; the norms and the aggregations are the same host operations in both
  programs and stay unopened.  No law that needs finite inputs is used, so the precondition is never opened.
  The idealization pass rewrote nothing: its conjunct is `True`.
-/
import proofs.«156591_j23038204575791_1_alg».proof.Defs
import proofs.«156591_j23038204575791_1_alg».proof.Proof.Gen.Kernel
import proofs.«156591_j23038204575791_1_alg».proof.Proof.Gen.Kernel.Skeleton
import proofs.«156591_j23038204575791_1_alg».proof.Proof.KernelLaunch
import proofs.«156591_j23038204575791_1_alg».proof.Proof.Gen.Kernel.Points
import proofs.«156591_j23038204575791_1_alg».proof.Proof.KernelFrame
import proofs.«156591_j23038204575791_1_alg».proof.Proof.Gen.KernelIdeal
import proofs.«156591_j23038204575791_1_alg».proof.Proof.Gen.KernelIdeal.Skeleton
import proofs.«156591_j23038204575791_1_alg».proof.Proof.KernelIdealLaunch
import proofs.«156591_j23038204575791_1_alg».proof.Proof.Gen.KernelIdeal.Points
import proofs.«156591_j23038204575791_1_alg».proof.Proof.KernelIdealFrame
import proofs.«156591_j23038204575791_1_alg».proof.Proof.Gen.ReferenceIdeal
import proofs.«156591_j23038204575791_1_alg».proof.Proof.Gen.ReferenceIdeal.Run
import proofs.«156591_j23038204575791_1_alg».proof.Proof.Gen.ReferenceIdeal.Read
import proofs.«156591_j23038204575791_1_alg».proof.Proof.Gen.Pre_finite_inputs
import proofs.«156591_j23038204575791_1_alg».proof.Proof.KernelValue
import proofs.«156591_j23038204575791_1_alg».proof.Proof.RefLayers
import proofs.«156591_j23038204575791_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network of the (agreeing) argument arrays: the kernel program by its regions chained
    through the host stretches, the reference by its stages read layer by layer; the norms and the aggregations of the
    two are the same functions. -/
theorem algebraic : Cert.algebraic_KernelIdeal_ReferenceIdeal := by
  intro m ρ m' ρ' _ hagree
  refine ⟨_, Cert.Gnn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v74_eq, Cert.Gnn.Ref.ref_layers, e0, e1, e2, e3, e4, e5, e6, e7, e8,
    Cert.Gnn.Bridge.norm_src, Cert.Gnn.Bridge.norm_dst, Cert.Gnn.Bridge.agg_eq, Cert.Gnn.Bridge.agg'_eq]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
